-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x768 : Shape := ⟨2, ![4096, 768]⟩
abbrev S2x1 : Shape := ⟨2, ![2, 1]⟩
abbrev S2 : Shape := ⟨1, ![2]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S2x1 : S_.BroadcastsInDim S2x1 (![] : Fin 0 → Fin S2x1.rank)
  reducesTo_S2x1_S_d0_1 : S2x1.ReducesTo [0, 1] S_
  bcast_S_S2 : S_.BroadcastsInDim S2 (![] : Fin 0 → Fin S2.rank)
  reducesTo_S2_S_d0 : S2.ReducesTo [0] S_

variable [Facts]

def fn {F : FTy → Type} [FloatOps F] (main_arg0 : FVec F S4096x768 .f32) (main_arg1 : FVec F S2x1 .f32) (main_arg2 : FVec F S2 .f32) : IVec S_ 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S2x1 .f32 := Host.absf main_arg1
  let main_cst_0 : FVec F S_ .f32 := constant S_ .f32 0x7F800000#32
  let main_v5 : FVec F S2x1 .f32 := broadcastInDim S2x1 ![] bcast_S_S2x1 main_cst_0
  let main_v6 : IVec S2x1 1 := cmpf .olt main_v4 main_v5
  let main_c_1 : IVec S_ 1 := constantI S_ 1 1#1
  let main_v7 : IVec S_ 1 := (fun x v => Host.reduce IntOp.andi x v reducesTo_S2x1_S_d0_1 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  main_v13
-- ==== Kernel.lean ====
abbrev S4096x768 : Shape := ⟨2, ![4096, 768]⟩
abbrev S2x1 : Shape := ⟨2, ![2, 1]⟩
abbrev S2 : Shape := ⟨1, ![2]⟩
abbrev S1024x768 : Shape := ⟨2, ![1024, 768]⟩
abbrev S1024 : Shape := ⟨1, ![1024]⟩
abbrev S1024x1 : Shape := ⟨2, ![1024, 1]⟩
abbrev S4096x2x768 : Shape := ⟨3, ![4096, 2, 768]⟩
abbrev S8192x768 : Shape := ⟨2, ![8192, 768]⟩
abbrev S1x2 : Shape := ⟨2, ![1, 2]⟩
abbrev S512x2 : Shape := ⟨2, ![512, 2]⟩
abbrev S1x1024 : Shape := ⟨2, ![1, 1024]⟩
abbrev S4096x8192 : Shape := ⟨2, ![4096, 8192]⟩
abbrev S1024x1024 : Shape := ⟨2, ![1024, 1024]⟩
abbrev S4096x4096x2 : Shape := ⟨3, ![4096, 4096, 2]⟩

abbrev nBuf : Space → Nat
  | .hbm => 17
  | .vmem => 12
  | .smem => 0
  | _ => 0

abbrev bufTy : (tb : Table) → Fin (tcTables nBuf tb) → BufTy
  | .hbm, ⟨0, _⟩ => ⟨S4096x768, .f32⟩
  | .hbm, ⟨1, _⟩ => ⟨S2x1, .f32⟩
  | .hbm, ⟨2, _⟩ => ⟨S2, .f32⟩
  | .hbm, ⟨3, _⟩ => ⟨S4096x768, .bf16⟩
  | .hbm, ⟨4, _⟩ => ⟨S4096x2x768, .bf16⟩
  | .hbm, ⟨5, _⟩ => ⟨S8192x768, .bf16⟩
  | .hbm, ⟨6, _⟩ => ⟨S2, .f32⟩
  | .hbm, ⟨7, _⟩ => ⟨S1x2, .f32⟩
  | .hbm, ⟨8, _⟩ => ⟨S512x2, .f32⟩
  | .hbm, ⟨9, _⟩ => ⟨S1024, .f32⟩
  | .hbm, ⟨10, _⟩ => ⟨S1x1024, .f32⟩
  | .hbm, ⟨11, _⟩ => ⟨S1x2, .f32⟩
  | .hbm, ⟨12, _⟩ => ⟨S512x2, .f32⟩
  | .hbm, ⟨13, _⟩ => ⟨S1024, .f32⟩
  | .hbm, ⟨14, _⟩ => ⟨S1x1024, .f32⟩
  | .hbm, ⟨15, _⟩ => ⟨S4096x8192, .f32⟩
  | .hbm, ⟨16, _⟩ => ⟨S4096x4096x2, .f32⟩
  | .local _ .vmem, ⟨0, _⟩ => ⟨S1024x768, .f32⟩
  | .local _ .vmem, ⟨1, _⟩ => ⟨S1024x768, .f32⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S1024x768, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  inb_S1024x768_S1024x768_0_0 : ∀ a, (![0, 0] : Fin 2 → Nat) a + S1024x768.size a ≤ S1024x768.size a
  h_S1024x768 : 0 < S1024x768.numel
  reduces_S1024x768_S1024 : S1024x768.Reduces [1] S1024
  shapeCasts_S1024_S1024x1 : S1024.ShapeCasts S1024x1
  broadcasts_S1024x1_S1024x768 : S1024x1.Broadcasts S1024x768
  bitsLt_bf16_f32 : FTy.bits .bf16 < FTy.bits .f32
  packedbf16_S1024x768_S1024x768_0_0 : (Rect.unit (s := S1024x768) ![0, 0] S1024x768.size inb_S1024x768_S1024x768_0_0).PackedRows (EltTy.packing .bf16)
  bcast_S4096x768_S4096x2x768_0_2 : S4096x768.BroadcastsInDim S4096x2x768 (![0, 2] : Fin 2 → Fin S4096x2x768.rank)
  shapeCasts_S4096x2x768_S8192x768 : S4096x2x768.ShapeCasts S8192x768
  shapeCasts_S2x1_S2 : S2x1.ShapeCasts S2
  shapeCasts_S2_S1x2 : S2.ShapeCasts S1x2
  bcast_S1x2_S512x2_0_1 : S1x2.BroadcastsInDim S512x2 (![0, 1] : Fin 2 → Fin S512x2.rank)
  shapeCasts_S512x2_S1024 : S512x2.ShapeCasts S1024
  shapeCasts_S1024_S1x1024 : S1024.ShapeCasts S1x1024
  shapeCasts_S1024x768_S1024x768 : S1024x768.ShapeCasts S1024x768
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S4096x8192_S4096x4096x2 : S4096x8192.ShapeCasts S4096x4096x2
  dot_S1024x768_S1024x768_S1024x1024_1_1_0_0_n_n_wf : DotDims.WF S1024x768 S1024x768 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S4096x768.size a
  hwx0_0 : ∀ i : grid0.Coords, EltTy.bits .f32 = 32 ∨ (Rect.block (s := S4096x768) S1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S4096x768.size a
  hwx0_1 : ∀ i : grid0.Coords, EltTy.bits .bf16 = 32 ∨ (Rect.block (s := S4096x768) S1024x768.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x768.size a ≤ S4096x768.size a
  hwx1_0 : ∀ i : grid1.Coords, EltTy.bits .bf16 = 32 ∨ (Rect.block (s := S4096x768) S1024x768.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x768.size a ≤ S8192x768.size a
  hwx1_1 : ∀ i : grid1.Coords, EltTy.bits .bf16 = 32 ∨ (Rect.block (s := S8192x768) S1024x768.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S4096x8192.size a
  hwx1_4 : ∀ i : grid1.Coords, EltTy.bits .f32 = 32 ∨ (Rect.block (s := S4096x8192) S1024x1024.size (cc1_transform_4 i) (hinb1_4 i)).WholeWords (EltTy.packing .f32)

variable [Facts₀]

def dot_S1024x768_S1024x768_S1024x1024_1_1_0_0_n_n : DotDims S1024x768 S1024x768 S1024x1024 where
  lhsContracting := [1]
  rhsContracting := [1]
  lhsNonContracting := [0]
  rhsNonContracting := [0]
  lhsBatch := []
  rhsBatch := []
  wf := dot_S1024x768_S1024x768_S1024x1024_1_1_0_0_n_n_wf

abbrev win0_0 : Pipeline.Window sig grid0 :=
  Pipeline.Window.ofSpec (Memref.whole main_arg0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x768.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1024x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4096x768 : Shape := ⟨2, ![4096, 768]⟩
abbrev S2x1 : Shape := ⟨2, ![2, 1]⟩
abbrev S2 : Shape := ⟨1, ![2]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S4096x4096x1 : Shape := ⟨3, ![4096, 4096, 1]⟩
abbrev S1x1x2 : Shape := ⟨3, ![1, 1, 2]⟩
abbrev S4096x4096x2 : Shape := ⟨3, ![4096, 4096, 2]⟩

abbrev nBuf : Space → Nat
  | .hbm => 23
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S2x1, .f32⟩
  | .hbm, ⟨2, _⟩ => ⟨S2, .f32⟩
  | .hbm, ⟨3, _⟩ => ⟨S4096x768, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x768, .f32⟩
  | .hbm, ⟨12, _⟩ => ⟨S4096x768, .f32⟩
  | .hbm, ⟨13, _⟩ => ⟨S4096x4096, .f32⟩
  | .hbm, ⟨14, _⟩ => ⟨S4096x4096x1, .f32⟩
  | .hbm, ⟨15, _⟩ => ⟨S2, .f32⟩
  | .hbm, ⟨16, _⟩ => ⟨S1x1x2, .f32⟩
  | .hbm, ⟨17, _⟩ => ⟨S4096x4096x2, .f32⟩
  | .hbm, ⟨18, _⟩ => ⟨S4096x4096x2, .f32⟩
  | .hbm, ⟨19, _⟩ => ⟨S4096x4096x2, .f32⟩
  | .hbm, ⟨20, _⟩ => ⟨S1x1x2, .f32⟩
  | .hbm, ⟨21, _⟩ => ⟨S4096x4096x2, .f32⟩
  | .hbm, ⟨22, _⟩ => ⟨S4096x4096x2, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  reducesTo_S4096x768_S4096_d1 : S4096x768.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x768_0_1 : S4096x1.BroadcastsInDim S4096x768 (![0, 1] : Fin 2 → Fin S4096x768.rank)
  bcast_S4096x4096_S4096x4096x1_0_1 : S4096x4096.BroadcastsInDim S4096x4096x1 (![0, 1] : Fin 2 → Fin S4096x4096x1.rank)
  shapeCasts_S2x1_S2 : S2x1.ShapeCasts S2
  bcast_S2_S1x1x2_2 : S2.BroadcastsInDim S1x1x2 (![2] : Fin 1 → Fin S1x1x2.rank)
  bcast_S4096x4096x1_S4096x4096x2_0_1_2 : S4096x4096x1.BroadcastsInDim S4096x4096x2 (![0, 1, 2] : Fin 3 → Fin S4096x4096x2.rank)
  bcast_S1x1x2_S4096x4096x2_0_1_2 : S1x1x2.BroadcastsInDim S4096x4096x2 (![0, 1, 2] : Fin 3 → Fin S4096x4096x2.rank)
  dot_S4096x768_S4096x768_S4096x4096_1_1_0_0_n_n_wf : DotDims.WF S4096x768 S4096x768 S4096x4096 [1] [1] [0] [0] [] []

variable [Facts₀]

def dot_S4096x768_S4096x768_S4096x4096_1_1_0_0_n_n : DotDims S4096x768 S4096x768 S4096x4096 where
  lhsContracting := [1]
  rhsContracting := [1]
  lhsNonContracting := [0]
  rhsNonContracting := [0]
  lhsBatch := []
  rhsBatch := []
  wf := dot_S4096x768_S4096x768_S4096x4096_1_1_0_0_n_n_wf

class Facts : Prop extends Facts₀ where

variable [Facts]
-- ==== Proof.RunValue.lean ====
/-
  The idealized kernel's run with its result named.

  @main is four segments: the normalising region, eleven host operations that lay out its operands (the doubled
  rows, the alternating weight and bias rows), the similarity region, and one reshape. The buffer contents at
  the four boundaries are a fold from the launch memory. Every weakly fair execution ends with every unscoped
  buffer at the last boundary's contents; read at the result buffer that gives the result as the fold's value
  there, and read at the three arguments it gives them back as launched.
-/
import proofs.«122956_j30339648979154_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the value the
    fold through the four segments gives it and the three arguments as launched. -/
theorem run_named : θ_run defs (onTc (τ := τ) (main (F := F))) ⟨m, fun _ => 0, ρ⟩ (fun r => ∀ c : Dev nD,
      r.2.mem ((c.tc : Thread nD τ).loc main_v13) = W4 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v13 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.Hand

end
-- ==== Proof.Spec.lean ====
/-
  The function both programs compute, stated once over the extended reals, with no program in sight.

  For a matrix x of 4096 rows and 768 columns, a 2-by-1 weight w and a 2-vector b:
    the clamped norm of row r is  n r = max (sqrt (sum_k x[r,k]^2)) eps,
    the unit row is  u[r,k] = x[r,k] / n r,
    the cosine similarity of rows i and j is  s[i,j] = sum_k u[i,k] * u[j,k],
    and the result is  out[i,j,c] = s[i,j] * w[c,0] + b[c].
  The lower bound eps is kept as its f32 word: the same word stands on both sides and is never evaluated.
  The kernel holds the result as a 4096-by-8192 matrix whose column 2j+c is out[i,j,c]; that interleaved form
  is stated here too, together with the doubled-row form of u (row r' of the doubled matrix is row r'/2 of u).
-/
import Idealize.ShloMosaic.PureOps.Ideal
import Idealize.ShloMosaic.Lib.ValueIdx

noncomputable section

open Idealize.ShloMosaic Idealize.ShloMosaic.ValueIdx
open scoped BigOperators

namespace Cert.CosAffine

/-- The lower bound of a row's norm, as the f32 word both programs carry. -/
abbrev eps : EReal := Ideal.ofBits .f32 0x322BCC77#32

/-- The norm of row `r`, clamped below by `eps`. -/
def rowNorm (x : (⟨2, ![4096, 768]⟩ : Shape).Idx → EReal) (r : Fin 4096) : EReal :=
  max (Ideal.sqrt (∑ k : Fin 768, x (ix2 r k) * x (ix2 r k))) eps

/-- Entry `k` of row `r` divided by the row's clamped norm. -/
def unitRow (x : (⟨2, ![4096, 768]⟩ : Shape).Idx → EReal) (r : Fin 4096) (k : Fin 768) : EReal :=
  Ideal.div (x (ix2 r k)) (rowNorm x r)

/-- The cosine similarity of rows `i` and `j`. -/
def sim (x : (⟨2, ![4096, 768]⟩ : Shape).Idx → EReal) (i j : Fin 4096) : EReal :=
  ∑ k : Fin 768, unitRow x i k * unitRow x j k

/-- The result at (i, j, c): the similarity scaled by channel c's weight and shifted by its bias. -/
def out (x : (⟨2, ![4096, 768]⟩ : Shape).Idx → EReal) (w : (⟨2, ![2, 1]⟩ : Shape).Idx → EReal)
    (b : (⟨1, ![2]⟩ : Shape).Idx → EReal) (i j : Fin 4096) (c : Fin 2) : EReal :=
  sim x i j * w (ix2 c 0) + b (ix1 c)

/-- The matrix of unit rows as an array. -/
def unitArr (x : (⟨2, ![4096, 768]⟩ : Shape).Idx → EReal) : (⟨2, ![4096, 768]⟩ : Shape).Idx → EReal :=
  fun i => unitRow x ⟨(i 0).val, (i 0).isLt⟩ ⟨(i 1).val, (i 1).isLt⟩

/-- The result as an array of shape [4096, 4096, 2]. -/
def outArr (x : (⟨2, ![4096, 768]⟩ : Shape).Idx → EReal) (w : (⟨2, ![2, 1]⟩ : Shape).Idx → EReal)
    (b : (⟨1, ![2]⟩ : Shape).Idx → EReal) : (⟨3, ![4096, 4096, 2]⟩ : Shape).Idx → EReal :=
  fun i => out x w b ⟨(i 0).val, (i 0).isLt⟩ ⟨(i 1).val, (i 1).isLt⟩ ⟨(i 2).val, (i 2).isLt⟩

/-- The doubled-row matrix: row `r'` of it is row `r' / 2` of the unit rows. -/
def dupArr (x : (⟨2, ![4096, 768]⟩ : Shape).Idx → EReal) : (⟨2, ![8192, 768]⟩ : Shape).Idx → EReal :=
  fun i => unitRow x ⟨(i 0).val / 2, by have h : (i 0).val < 8192 := (i 0).isLt; show (i 0).val / 2 < 4096; omega⟩ ⟨(i 1).val, (i 1).isLt⟩

/-- A weight (or bias) pair laid out as one row of 1024 entries alternating between the two channels. -/
def altRow (v : Fin 2 → EReal) : (⟨2, ![1, 1024]⟩ : Shape).Idx → EReal :=
  fun i => v ⟨(i 1).val % 2, Nat.mod_lt _ (by decide)⟩

/-- A [4096, 8192] matrix built block-wise from a left matrix `a`, a right matrix `d` of 8192 rows, and two rows
    of 1024 entries: entry (r, s) is the product of row r of `a` with row s of `d`, scaled and shifted by the
    entries s mod 1024 of the two rows. -/
def prodAffine (a : (⟨2, ![4096, 768]⟩ : Shape).Idx → EReal) (d : (⟨2, ![8192, 768]⟩ : Shape).Idx → EReal)
    (wv bv : (⟨2, ![1, 1024]⟩ : Shape).Idx → EReal) : (⟨2, ![4096, 8192]⟩ : Shape).Idx → EReal :=
  fun i => (∑ k : Fin 768, a (ix2 ⟨(i 0).val, (i 0).isLt⟩ k) * d (ix2 ⟨(i 1).val, (i 1).isLt⟩ k))
    * wv (ix2 (0 : Fin 1) ⟨(i 1).val % 1024, Nat.mod_lt _ (by decide)⟩)
    + bv (ix2 (0 : Fin 1) ⟨(i 1).val % 1024, Nat.mod_lt _ (by decide)⟩)

theorem prodAffine_ix2 (a : (⟨2, ![4096, 768]⟩ : Shape).Idx → EReal) (d : (⟨2, ![8192, 768]⟩ : Shape).Idx → EReal)
    (wv bv : (⟨2, ![1, 1024]⟩ : Shape).Idx → EReal) (r : Fin 4096) (s : Fin 8192) :
    prodAffine a d wv bv (ix2 r s) = (∑ k : Fin 768, a (ix2 r k) * d (ix2 s k))
      * wv (ix2 (0 : Fin 1) ⟨s.val % 1024, Nat.mod_lt _ (by decide)⟩)
      + bv (ix2 (0 : Fin 1) ⟨s.val % 1024, Nat.mod_lt _ (by decide)⟩) := rfl

theorem unitArr_ix2 (x : (⟨2, ![4096, 768]⟩ : Shape).Idx → EReal) (r : Fin 4096) (k : Fin 768) :
    unitArr x (ix2 r k) = unitRow x r k := rfl

theorem outArr_ix3 (x : (⟨2, ![4096, 768]⟩ : Shape).Idx → EReal) (w : (⟨2, ![2, 1]⟩ : Shape).Idx → EReal)
    (b : (⟨1, ![2]⟩ : Shape).Idx → EReal) (i j : Fin 4096) (c : Fin 2) :
    outArr x w b (ix3 i j c) = out x w b i j c := rfl

end Cert.CosAffine

end
-- ==== Proof.LibRowReduce.lean ====
/-
  A matrix reduced along its rows, the result kept as a column: the layout steps and the reductions, read at an index.

  A reduction of an `[a, b]` matrix over its second axis yields a vector of `a` entries.  Kept as a column it is cast to
  `[a, 1]`, and to meet the matrix again it is broadcast back to `[a, b]`: entry `(i, j)` of the broadcast is entry `i` of
  the vector.  The reductions themselves, at the extended reals: a row's maximum is the fold of `max` over the row from
  the starting value, a row's sum is the sum over the row.  The same two readings hold for the last axis of an
  `[n, a, b]` array reduced by a host program, where the starting value is added in front of the sum.
-/
import Idealize.ShloMosaic.Lib.Pipeline.Value
import Idealize.ShloMosaic.Lib.ValueIdx
import Idealize.ShloMosaic.PureOps.Ideal.Laws

noncomputable section

namespace Cert.RowReduce

open Idealize.ShloMosaic Idealize.ShloMosaic.ValueIdx

variable {α : Type}

/-! ## The column of a vector -/

/-- A vector of `a` entries cast to a column `[a, 1]` reads, at `(i, u)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along the rows of an `[a, b]` matrix reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- So a vector kept as a column and broadcast along the rows reads, at `(i, j)`, the vector's entry `i`. -/
theorem broadcastTo_column_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (i : Fin a) (j : Fin b) :
    broadcastTo ⟨2, ![a, b]⟩ (shapeCast ⟨2, ![a, 1]⟩ x hc) hb (ix2 i j) = x (ix1 i) := by
  rw [broadcastTo_a1_ab_apply, shapeCast_a_a1_apply]

/-! ## A matrix reduced along its rows -/

/-- Over entry `i` of the reduced vector, the matrix index with `k` on the reduced axis is `(i, k)`. -/
theorem lift_row {a b : ℕ} (h : (⟨2, ![a, b]⟩ : Shape).Reduces [1] ⟨1, ![a]⟩) (i : Fin a) (k : Fin b) :
    h.lift (ix1 i) k = ix2 i k :=
  funext fun c => Fin.ext (by match c with | ⟨0, _⟩ => rfl | ⟨1, _⟩ => rfl)

variable {φ : FTy}

/-- A row's maximum at the extended reals: the fold of `max` over the row's entries from the starting value. -/
theorem multiReduction_maximumf_row {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ X acc h hφ hacc (ix1 i)
      = (Finset.univ : Finset (Fin b)).fold max (Ideal.ofBits φ acc) (fun k => X (ix2 i k)) := by
  have e : (X ∘ h.lift (ix1 i)) = fun k => X (ix2 i k) := funext fun k => congrArg X (lift_row h i k)
  rw [Ideal.multiReduction_maximumf_single, e]
  rfl

/-- A row's sum at the extended reals: the sum over the row's entries. -/
theorem multiReduction_add_row {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ X acc h hφ hacc (ix1 i) = ∑ k : Fin b, X (ix2 i k) := by
  rw [Ideal.multiReduction_add_single]
  exact Finset.sum_congr rfl fun k _ => congrArg X (lift_row h i k)

/-! ## The last axis of a rank-3 array reduced by a host program -/

/-- Over entry `(p, i)` of the reduced array, the source index with `k` on the reduced axis is `(p, i, k)`. -/
theorem lift_last3 {n a b : ℕ} (h : (⟨3, ![n, a, b]⟩ : Shape).Reduces [2] ⟨2, ![n, a]⟩) (p : Fin n) (i : Fin a) (k : Fin b) :
    h.lift (ix2 p i) k = ix3 p i k :=
  funext fun c => Fin.ext (by match c with | ⟨0, _⟩ => rfl | ⟨1, _⟩ => rfl | ⟨2, _⟩ => rfl)

/-- A host maximum over the last axis: the fold of `max` over that axis from the starting value. -/
theorem hostReduce_maximumf_last3 {n a b : ℕ} {u : Shape} (x : (⟨3, ![n, a, b]⟩ : Shape).Idx → Ideal φ) (init : u.Idx → Ideal φ)
    (h' : (⟨3, ![n, a, b]⟩ : Shape).ReducesTo [2] ⟨2, ![n, a]⟩) (h : (⟨3, ![n, a, b]⟩ : Shape).Reduces [2] ⟨2, ![n, a]⟩)
    (hu : 0 < u.numel) (p : Fin n) (i : Fin a) :
    Host.reduce (FloatOps.maximumf (F := Ideal) (φ := φ)) x init h' hu (ix2 p i)
      = (Finset.univ : Finset (Fin b)).fold max (init (Shape.Idx.first hu)) (fun k => x (ix3 p i k)) := by
  have e : (x ∘ h.lift (ix2 p i)) = fun k => x (ix3 p i k) := funext fun k => congrArg x (lift_last3 h p i k)
  rw [Host.reduce_eq_fold_single (FloatOps.maximumf (F := Ideal) (φ := φ)) x init h' h hu, e]
  rfl

/-- A host sum over the last axis: the starting value plus the sum over that axis. -/
theorem hostReduceAdd_last3 {n a b : ℕ} (x : (⟨3, ![n, a, b]⟩ : Shape).Idx → EReal) (init : EReal)
    (h' : (⟨3, ![n, a, b]⟩ : Shape).ReducesTo [2] ⟨2, ![n, a]⟩) (h : (⟨3, ![n, a, b]⟩ : Shape).Reduces [2] ⟨2, ![n, a]⟩)
    (p : Fin n) (i : Fin a) :
    Ideal.hostReduceAdd h' x init (ix2 p i) = init + ∑ k : Fin b, x (ix3 p i k) := by
  rw [Ideal.hostReduceAdd_single h' h]
  exact congrArg (init + ·) (Finset.sum_congr rfl fun k _ => congrArg x (lift_last3 h p i k))

end Cert.RowReduce

end
-- ==== Proof.Normalize.lean ====
/-
  The first region: every row of the matrix divided by its clamped norm.

  The grid has four points; point t loads rows 1024 t … 1024 t + 1023 of the matrix and stores the same rows of
  the normalised matrix. Within a block, row p of the result is row p of the block divided by
  max (sqrt (sum_k x[p,k]^2)) eps: the squares summed along the row, the root and the clamp taken on the column of
  sums, and the column broadcast back along the rows before the division. A row of the block is a row of the
  matrix, so the block point t writes back is block t of the matrix of unit rows, and the four blocks tile the
  array: after the region the array is the matrix of unit rows of whatever the region found in the argument.
-/
import proofs.«122956_j30339648979154_2_alg».proof.Proof.Gen.KernelIdeal.Frame
import proofs.«122956_j30339648979154_2_alg».proof.Proof.Spec
import proofs.«122956_j30339648979154_2_alg».proof.Proof.LibRowReduce
import Idealize.ShloMosaic.Lib.Pipeline.Value
import Idealize.ShloMosaic.Lib.ValueIdx

noncomputable section
namespace Cert.KernelIdeal.Hand
open Cert.KernelIdeal Cert.KernelIdeal.Gen Idealize.ShloMosaic Idealize.ShloMosaic.TcCoe Idealize.SL.Sem Idealize.ShloMosaic.ValueIdx
open Idealize.ShloMosaic.Pipeline (Dat)

/-- The first body at (p, q): the entry divided by the clamped norm of its row. -/
theorem normalize_pay (x0 : Vec Ideal S1024x768 .f32) (p : Fin 1024) (q : Fin 768) :
    k0_pay1 (F := Ideal) x0 (ix2 p q)
      = Ideal.div (x0 (ix2 p q)) (max (Ideal.sqrt (∑ k : Fin 768, x0 (ix2 p k) * x0 (ix2 p k))) Cert.CosAffine.eps) := by
  unfold k0_pay1
  dsimp only
  rw [truncf_apply, divf_apply]
  refine congrArg (Ideal.div (x0 (ix2 p q))) ?_
  rw [Cert.RowReduce.broadcastTo_a1_ab_apply, maximumf_apply]
  refine congrArg₂ max ?_ rfl
  show Ideal.sqrt (shapeCast S1024x1 _ _ (ix2 p 0)) = _
  refine congrArg Ideal.sqrt ?_
  rw [Cert.RowReduce.shapeCast_a_a1_apply]
  exact Cert.RowReduce.multiReduction_add_row (mulf x0 x0) _ reduces_S1024x768_S1024 _ _ p

/-- One block of rows of the normalised matrix: if the block `x0` holds rows `1024 * tv …` of `x`, the body's value
    at `j` is the unit row entry of `x` at the array index `i` that `j` sits at. -/
theorem normalize_block (x : S4096x768.Idx → EReal) (x0 : Vec Ideal S1024x768 .f32) (tv : Nat)
    (hx0 : ∀ (p : Fin 1024) (k : Fin 768) (r : Fin 4096), r.val = tv * 1024 + p.val → x0 (ix2 p k) = x (ix2 r k))
    (j : S1024x768.Idx) (i : S4096x768.Idx) (hi0 : (i 0).val = tv * 1024 + (j 0).val) (hi1 : (i 1).val = (j 1).val) :
    k0_pay1 (F := Ideal) x0 j = Cert.CosAffine.unitArr x i := by
  obtain ⟨p, q, rfl⟩ : ∃ (p : Fin 1024) (q : Fin 768), j = ix2 p q := ⟨j 0, j 1, eq_ix2 j⟩
  obtain ⟨r, s, rfl⟩ : ∃ (r : Fin 4096) (s : Fin 768), i = ix2 r s := ⟨i 0, i 1, eq_ix2 i⟩
  have hr : r.val = tv * 1024 + p.val := hi0
  obtain rfl : s = q := Fin.ext hi1
  rw [normalize_pay, Cert.CosAffine.unitArr_ix2]
  unfold Cert.CosAffine.unitRow Cert.CosAffine.rowNorm
  rw [hx0 p s r hr]
  refine congrArg (fun z => Ideal.div (x (ix2 r s)) (max (Ideal.sqrt z) Cert.CosAffine.eps)) ?_
  exact Finset.sum_congr rfl fun k _ => by rw [hx0 p k r hr]

section Region
variable (V : (c : Dev nD) → (b : Ref sig .tc) → Buf (Elt Ideal) ((c : Thread nD τ).loc b))

theorem offs_zero : (![0, 0] : Fin 2 → Nat) = fun _ => 0 := funext fun a => by fin_cases a <;> rfl

/-- At grid point `t` both windows sit at block row `t`, block column 0. -/
theorem normalize_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of the matrix of unit rows of the argument. -/
theorem normalize_flushed (c : Dev nD) (t : Fin cfg0.N) :
    (dat0 V c).flushed 1 t = ((cfg0.win 1).blk t).view.read (Elt Ideal) (Cert.CosAffine.unitArr (V c main_arg0)) := by
  show (cfg0.win 1).cut (grid0.coords t) ((dat0 V c).after 1 t) = _
  rw [after0_1]
  unfold out0_1
  rw [View.canon_unit_zero offs_zero]
  simp only [View.ld_unit_zero (S := S1024x768) offs_zero]
  obtain ⟨e0, e1, e2, e3⟩ := normalize_index t
  funext j
  show k0_pay1 (F := Ideal) (iblk0 V c 0 t) j = Cert.CosAffine.unitArr (V c main_arg0) (((cfg0.win 1).blk t).view.emb j)
  refine normalize_block (V c main_arg0) (iblk0 V c 0 t) t.val (fun p k r hr => ?_) j _ ?_ ?_
  · unfold iblk0
    rw [View.read_apply]
    show V c main_arg0 _ = V c main_arg0 _
    refine congrArg (V c main_arg0) (funext fun a => Fin.ext ?_)
    match a with
    | ⟨0, _⟩ => show win0_0.index t (0 : Fin 2) * 1024 + 1 * p.val = r.val; rw [e0, hr]; omega
    | ⟨1, _⟩ => show win0_0.index t (1 : Fin 2) * 768 + 1 * k.val = k.val; rw [e1]; omega
  · show win0_1.index t (0 : Fin 2) * 1024 + 1 * (j 0).val = t.val * 1024 + (j 0).val; rw [e2]; omega
  · show win0_1.index t (1 : Fin 2) * 768 + 1 * (j 1).val = (j 1).val; rw [e3]; omega

/-- An index of the array is in point `t`'s block iff each coordinate is in the block's range on its axis. -/
theorem normalize_mem_blk (t : Fin cfg0.N) (i : S4096x768.Idx) :
    i ∈ ((cfg0.win 1).blk t).view.set ↔ ∀ a : Fin 2, win0_1.index t a * S1024x768.size a ≤ (i a).val ∧ (i a).val < win0_1.index t a * S1024x768.size a + S1024x768.size a := by
  show i ∈ ((View.whole main_v0).slice (win0_1.rect t)).set ↔ _
  rw [View.set_slice_whole, Rect.mem_set_unit]
  exact Iff.rfl

/-- Row `r` lies in the block of point `r / 1024`. -/
theorem normalize_cover (i : S4096x768.Idx) : ∃ t : Fin cfg0.N, (cfg0.win 1).flush t = true ∧ i ∈ ((cfg0.win 1).blk t).view.set := by
  have hi0 : (i 0).val < 4096 := (i 0).isLt
  have hi1 : (i 1).val < 768 := (i 1).isLt
  have hN : grid0.N = 4 := N_0
  let t : Fin cfg0.N := ⟨(i 0).val / 1024, by show (i 0).val / 1024 < grid0.N; rw [hN]; omega⟩
  obtain ⟨_, _, e2, e3⟩ := normalize_index t
  have ht : t.val = (i 0).val / 1024 := rfl
  refine ⟨t, flush0_1 t, ?_⟩
  rw [normalize_mem_blk]
  intro a
  match a with
  | ⟨0, _⟩ => show win0_1.index t (0 : Fin 2) * 1024 ≤ (i 0).val ∧ (i 0).val < win0_1.index t (0 : Fin 2) * 1024 + 1024; rw [e2, ht]; omega
  | ⟨1, _⟩ => show win0_1.index t (1 : Fin 2) * 768 ≤ (i 1).val ∧ (i 1).val < win0_1.index t (1 : Fin 2) * 768 + 768; rw [e3]; omega

/-- After the first region the normalised array holds the unit rows of the argument as the region found it. -/
theorem normalize_final (c : Dev nD) : (dat0 V c).arrAt 1 cfg0.N = Cert.CosAffine.unitArr (V c main_arg0) :=
  (dat0 V c).arrAt_eq_of_cover 1 (Cert.CosAffine.unitArr (V c main_arg0)) (fun t _ => normalize_flushed V c t) normalize_cover

end Region

end Cert.KernelIdeal.Hand
end
-- ==== Proof.SimAffine.lean ====
/-
  The second region: the similarity of every row with every doubled row, scaled and shifted channel by channel.

  The grid is 4 by 8; point (ti, tj) loads rows 1024 ti … of the normalised matrix, rows 1024 tj … of the
  doubled-row matrix, and the two rows of 1024 alternating weights and biases, and stores the 1024-by-1024 block
  (ti, tj) of the output. Within a block, entry (p, q) is the product of row p of the first block with row q of
  the second — the matrix product into a zero accumulator is the plain sum over the 768 shared columns —, times
  entry q of the weight row, plus entry q of the bias row. The blocks are restrictions of one matrix: entry (r, s)
  of it is the product of row r of the left array with row s of the doubled array, scaled and shifted by the
  entries s mod 1024 of the two rows; the 32 blocks tile the [4096, 8192] output.
-/
import proofs.«122956_j30339648979154_2_alg».proof.Proof.Gen.KernelIdeal.Frame
import proofs.«122956_j30339648979154_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.Hand
open Cert.KernelIdeal Cert.KernelIdeal.Gen Idealize.ShloMosaic Idealize.ShloMosaic.TcCoe Idealize.SL.Sem Idealize.ShloMosaic.ValueIdx
open Idealize.ShloMosaic.Pipeline (Dat)

/-- The matrix product's dimension numbers: both operands contract their second axis. -/
abbrev DD := dot_S1024x768_S1024x768_S1024x1024_1_1_0_0_n_n

theorem dd_lhs0 (i : S1024x1024.Idx) (q : DD.contr.Idx) : (DD.lhsIdx i q 0).val = (i 0).val := by
  unfold DotDims.lhsIdx
  rw [dif_neg (show ¬(0 : Fin S1024x768.rank) ∈ DD.lhsBatch by decide), dif_pos (show (0 : Fin S1024x768.rank) ∈ DD.lhsNonContracting by decide)]
  rfl
theorem dd_lhs1 (i : S1024x1024.Idx) (q : DD.contr.Idx) : (DD.lhsIdx i q 1).val = (q ⟨0, by decide⟩).val :=
  DD.lhsIdx_val_of_single rfl i q
theorem dd_rhs0 (i : S1024x1024.Idx) (q : DD.contr.Idx) : (DD.rhsIdx i q 0).val = (i 1).val := by
  unfold DotDims.rhsIdx
  rw [dif_neg (show ¬(0 : Fin S1024x768.rank) ∈ DD.rhsBatch by decide), dif_pos (show (0 : Fin S1024x768.rank) ∈ DD.rhsNonContracting by decide)]
  rfl
theorem dd_rhs1 (i : S1024x1024.Idx) (q : DD.contr.Idx) : (DD.rhsIdx i q 1).val = (q ⟨0, by decide⟩).val :=
  DD.rhsIdx_val_of_single rfl i q

/-- Entry (p, q) of the product of a block with the transpose of another, into a zero accumulator: the sum over
    the shared axis of the products of row p of the first and row q of the second. -/
theorem matmul_rows (l r : FVec Ideal S1024x768 .bf16) (p q : Fin 1024) :
    FloatOps.matmul DD none l r (constant S1024x1024 .f32 0x00000000#32) (ix2 p q) = ∑ k : Fin 768, l (ix2 p k) * r (ix2 q k) := by
  rw [Ideal.matmul_constant_zero_apply, ← Equiv.sum_comp (contrEquiv1 DD 768 rfl rfl).symm]
  refine Finset.sum_congr rfl fun k _ => ?_
  have hk := contrEquiv1_symm_val DD 768 rfl rfl k
  have el : DD.lhsIdx (ix2 p q) ((contrEquiv1 DD 768 rfl rfl).symm k) = ix2 p k := funext fun a => Fin.ext (by
    match a with
    | ⟨0, _⟩ => exact dd_lhs0 _ _
    | ⟨1, _⟩ => exact (dd_lhs1 _ _).trans hk)
  have er : DD.rhsIdx (ix2 p q) ((contrEquiv1 DD 768 rfl rfl).symm k) = ix2 q k := funext fun a => Fin.ext (by
    match a with
    | ⟨0, _⟩ => exact dd_rhs0 _ _
    | ⟨1, _⟩ => exact (dd_rhs1 _ _).trans hk)
  rw [el, er]

/-- The second body at (p, q): the product of row p of the first block with row q of the second, scaled by entry q
    of the weight row and shifted by entry q of the bias row. -/
theorem sim_pay (x0 x1 : FVec Ideal S1024x768 .bf16) (x2 x3 : FVec Ideal S1x1024 .f32) (p q : Fin 1024) :
    k1_pay1 (F := Ideal) x0 x1 x2 x3 (ix2 p q)
      = (∑ k : Fin 768, x0 (ix2 p k) * x1 (ix2 q k)) * x2 (ix2 (0 : Fin 1) q) + x3 (ix2 (0 : Fin 1) q) := by
  unfold k1_pay1
  try dsimp only
  rw [addf_apply, mulf_apply]
  simp only [shapeCast_self]
  rw [broadcastTo_1b_ab_apply, broadcastTo_1b_ab_apply]
  refine congrArg₂ (· + ·) (congrArg₂ (· * ·) ?_ rfl) rfl
  exact matmul_rows x0 x1 p q

/-- One block of the product: if `x0` holds rows `1024 ti …` of `a`, `x1` rows `1024 tj …` of `d`, and `x2`, `x3`
    the two rows, the body's value at `j` is the product-affine matrix at the array index `i` that `j` sits at. -/
theorem sim_block (a : S4096x768.Idx → EReal) (d : S8192x768.Idx → EReal) (wv bv : S1x1024.Idx → EReal)
    (x0 x1 : FVec Ideal S1024x768 .bf16) (x2 x3 : FVec Ideal S1x1024 .f32) (ti tj : Nat)
    (h0 : ∀ (p : Fin 1024) (k : Fin 768) (r : Fin 4096), r.val = ti * 1024 + p.val → x0 (ix2 p k) = a (ix2 r k))
    (h1 : ∀ (p : Fin 1024) (k : Fin 768) (r : Fin 8192), r.val = tj * 1024 + p.val → x1 (ix2 p k) = d (ix2 r k))
    (h2 : ∀ q : Fin 1024, x2 (ix2 (0 : Fin 1) q) = wv (ix2 (0 : Fin 1) q))
    (h3 : ∀ q : Fin 1024, x3 (ix2 (0 : Fin 1) q) = bv (ix2 (0 : Fin 1) q))
    (j : S1024x1024.Idx) (i : S4096x8192.Idx) (hi0 : (i 0).val = ti * 1024 + (j 0).val) (hi1 : (i 1).val = tj * 1024 + (j 1).val) :
    k1_pay1 (F := Ideal) x0 x1 x2 x3 j = Cert.CosAffine.prodAffine a d wv bv i := by
  obtain ⟨p, q, rfl⟩ : ∃ (p : Fin 1024) (q : Fin 1024), j = ix2 p q := ⟨j 0, j 1, eq_ix2 j⟩
  obtain ⟨r, s, rfl⟩ : ∃ (r : Fin 4096) (s : Fin 8192), i = ix2 r s := ⟨i 0, i 1, eq_ix2 i⟩
  have hr : r.val = ti * 1024 + p.val := hi0
  have hs : s.val = tj * 1024 + q.val := hi1
  have hq : (⟨s.val % 1024, Nat.mod_lt _ (by decide)⟩ : Fin 1024) = q := Fin.ext (by show s.val % 1024 = q.val; have := q.isLt; omega)
  rw [sim_pay, Cert.CosAffine.prodAffine_ix2, hq, h2 q, h3 q]
  refine congrArg (fun z => z * wv (ix2 (0 : Fin 1) q) + bv (ix2 (0 : Fin 1) q)) ?_
  exact Finset.sum_congr rfl fun k _ => by rw [h0 p k r hr, h1 q k s hs]

section Region
variable (V : (c : Dev nD) → (b : Ref sig .tc) → Buf (Elt Ideal) ((c : Thread nD τ).loc b))

theorem offs_zero' : (![0, 0] : Fin 2 → Nat) = fun _ => 0 := funext fun a => by fin_cases a <;> rfl

/-- At grid point `t` = 8 ti + tj: the left operand's block row is ti, the doubled operand's block row is tj, the
    two rows are whole, and the output block is (ti, tj). -/
theorem sim_index : ∀ t : Fin cfg1.N, win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val / 8 ∧ win1_4.index t (1 : Fin 2) = t.val % 8 :=
  (by decide +kernel : ∀ t : Fin grid1.N, _)

/-- What point `t` writes back is block `t` of the product-affine matrix of the four arrays the region found. -/
theorem sim_flushed (c : Dev nD) (t : Fin cfg1.N) :
    (dat1 V c).flushed 4 t = ((cfg1.win 4).blk t).view.read (Elt Ideal)
      (Cert.CosAffine.prodAffine (V c main_v0) (V c main_v2) (V c main_v7) (V c main_v11)) := by
  show (cfg1.win 4).cut (grid1.coords t) ((dat1 V c).after 4 t) = _
  rw [after1_4]
  unfold out1_4
  rw [View.canon_unit_zero offs_zero']
  simp only [View.ld_unit_zero (S := S1024x768) offs_zero', View.ld_unit_zero (S := S1x1024) offs_zero']
  obtain ⟨e00, e01, e10, e11, e20, e21, e30, e31, e40, e41⟩ := sim_index t
  funext j
  show k1_pay1 (F := Ideal) (iblk1 V c 0 t) (iblk1 V c 1 t) (iblk1 V c 2 t) (iblk1 V c 3 t) j
    = Cert.CosAffine.prodAffine (V c main_v0) (V c main_v2) (V c main_v7) (V c main_v11) (((cfg1.win 4).blk t).view.emb j)
  refine sim_block (V c main_v0) (V c main_v2) (V c main_v7) (V c main_v11) (iblk1 V c 0 t) (iblk1 V c 1 t) (iblk1 V c 2 t) (iblk1 V c 3 t)
    (t.val / 8) (t.val % 8) (fun p k r hr => ?_) (fun p k r hr => ?_) (fun q => ?_) (fun q => ?_) j _ ?_ ?_
  · unfold iblk1
    rw [View.read_apply]
    show V c main_v0 _ = V c main_v0 _
    refine congrArg (V c main_v0) (funext fun a => Fin.ext ?_)
    match a with
    | ⟨0, _⟩ => show win1_0.index t (0 : Fin 2) * 1024 + 1 * p.val = r.val; rw [e00, hr]; omega
    | ⟨1, _⟩ => show win1_0.index t (1 : Fin 2) * 768 + 1 * k.val = k.val; rw [e01]; omega
  · unfold iblk1
    rw [View.read_apply]
    show V c main_v2 _ = V c main_v2 _
    refine congrArg (V c main_v2) (funext fun a => Fin.ext ?_)
    match a with
    | ⟨0, _⟩ => show win1_1.index t (0 : Fin 2) * 1024 + 1 * p.val = r.val; rw [e10, hr]; omega
    | ⟨1, _⟩ => show win1_1.index t (1 : Fin 2) * 768 + 1 * k.val = k.val; rw [e11]; omega
  · unfold iblk1
    rw [View.read_apply]
    show V c main_v7 _ = V c main_v7 _
    refine congrArg (V c main_v7) (funext fun a => Fin.ext ?_)
    match a with
    | ⟨0, _⟩ => show win1_2.index t (0 : Fin 2) * 1 + 1 * 0 = 0; rw [e20]
    | ⟨1, _⟩ => show win1_2.index t (1 : Fin 2) * 1024 + 1 * q.val = q.val; rw [e21]; omega
  · unfold iblk1
    rw [View.read_apply]
    show V c main_v11 _ = V c main_v11 _
    refine congrArg (V c main_v11) (funext fun a => Fin.ext ?_)
    match a with
    | ⟨0, _⟩ => show win1_3.index t (0 : Fin 2) * 1 + 1 * 0 = 0; rw [e30]
    | ⟨1, _⟩ => show win1_3.index t (1 : Fin 2) * 1024 + 1 * q.val = q.val; rw [e31]; omega
  · show win1_4.index t (0 : Fin 2) * 1024 + 1 * (j 0).val = t.val / 8 * 1024 + (j 0).val; rw [e40]; omega
  · show win1_4.index t (1 : Fin 2) * 1024 + 1 * (j 1).val = t.val % 8 * 1024 + (j 1).val; rw [e41]; omega

/-- An index of the array is in point `t`'s block iff each coordinate is in the block's range on its axis. -/
theorem sim_mem_blk (t : Fin cfg1.N) (i : S4096x8192.Idx) :
    i ∈ ((cfg1.win 4).blk t).view.set ↔ ∀ a : Fin 2, win1_4.index t a * S1024x1024.size a ≤ (i a).val ∧ (i a).val < win1_4.index t a * S1024x1024.size a + S1024x1024.size a := by
  show i ∈ ((View.whole main_v12).slice (win1_4.rect t)).set ↔ _
  rw [View.set_slice_whole, Rect.mem_set_unit]
  exact Iff.rfl

/-- Entry (r, s) lies in the block of point 8 (r / 1024) + s / 1024. -/
theorem sim_cover (i : S4096x8192.Idx) : ∃ t : Fin cfg1.N, (cfg1.win 4).flush t = true ∧ i ∈ ((cfg1.win 4).blk t).view.set := by
  have hi0 : (i 0).val < 4096 := (i 0).isLt
  have hi1 : (i 1).val < 8192 := (i 1).isLt
  have hN : grid1.N = 32 := N_1
  let t : Fin cfg1.N := ⟨(i 0).val / 1024 * 8 + (i 1).val / 1024, by show (i 0).val / 1024 * 8 + (i 1).val / 1024 < grid1.N; rw [hN]; omega⟩
  obtain ⟨_, _, _, _, _, _, _, _, e40, e41⟩ := sim_index t
  have ht : t.val = (i 0).val / 1024 * 8 + (i 1).val / 1024 := rfl
  refine ⟨t, flush1_4 t, ?_⟩
  rw [sim_mem_blk]
  intro a
  match a with
  | ⟨0, _⟩ => show win1_4.index t (0 : Fin 2) * 1024 ≤ (i 0).val ∧ (i 0).val < win1_4.index t (0 : Fin 2) * 1024 + 1024; rw [e40, ht]; omega
  | ⟨1, _⟩ => show win1_4.index t (1 : Fin 2) * 1024 ≤ (i 1).val ∧ (i 1).val < win1_4.index t (1 : Fin 2) * 1024 + 1024; rw [e41, ht]; omega

/-- After the second region its output array is the product-affine matrix of the four arrays the region found. -/
theorem sim_final (c : Dev nD) : (dat1 V c).arrAt 4 cfg1.N
    = Cert.CosAffine.prodAffine (V c main_v0) (V c main_v2) (V c main_v7) (V c main_v11) :=
  (dat1 V c).arrAt_eq_of_cover 4 _ (fun t _ => sim_flushed V c t) sim_cover

end Region

end Cert.KernelIdeal.Hand
end
-- ==== Proof.HostGlue.lean ====
/-
  The host operations around the two regions, read at an index.

  Between the regions the program lays out the second region's operands: the normalised matrix with every row
  repeated twice (broadcast along a new middle axis of extent 2, then flattened), and the weight column and the
  bias vector each tiled 512 times into a row of 1024 entries, so that entry q holds channel q mod 2. After the
  second region one reshape views the [4096, 8192] output as [4096, 4096, 2]: entry (i, j, c) is column 2 j + c.
  Each is a composition of reshapes and broadcasts; a reshape keeps the row-major position, a broadcast drops the
  new axis.
-/
import proofs.«122956_j30339648979154_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section
namespace Cert.KernelIdeal.Hand
open Cert.KernelIdeal Cert.KernelIdeal.Gen Idealize.ShloMosaic Idealize.ShloMosaic.TcCoe Idealize.SL.Sem Idealize.ShloMosaic.ValueIdx
open Idealize.ShloMosaic.StableHlo

variable {α : Type}

/-! ## The three layouts, read at an index -/

/-- Every row repeated twice: a [4096, 768] matrix broadcast to [4096, 2, 768] and flattened to [8192, 768] reads,
    at row s, the matrix's row s / 2. -/
theorem doubled_apply (y : S4096x768.Idx → α) (s : Fin 8192) (k : Fin 768) (r : Fin 4096) (hr : r.val = s.val / 2) :
    shapeCast S8192x768 (broadcastInDim S4096x2x768 ![0, 2] bcast_S4096x768_S4096x2x768_0_2 y) shapeCasts_S4096x2x768_S8192x768 (ix2 s k)
      = y (ix2 r k) := by
  refine (shapeCast_apply _ shapeCasts_S4096x2x768_S8192x768 (ix2 s k)
    (ix3 r (⟨s.val % 2, Nat.mod_lt _ (by decide)⟩ : Fin 2) k) ?_).trans ?_
  · rw [Shape.rowMajor_val_three, Shape.rowMajor_val_two]
    show (r.val * 2 + s.val % 2) * 768 + k.val = s.val * 768 + k.val
    rw [hr]; omega
  · exact broadcastInDim_apply _ bcast_S4096x768_S4096x2x768_0_2 y _ _ (fun a => match a with
      | ⟨0, _⟩ => by show r.val = if (4096 : Nat) = 1 then 0 else r.val; rw [if_neg (by decide)]
      | ⟨1, _⟩ => by show k.val = if (768 : Nat) = 1 then 0 else k.val; rw [if_neg (by decide)])

/-- A pair tiled 512 times into one row of 1024 entries: entry q of the row is entry q mod 2 of the pair. -/
theorem tiled_apply (v : S1x2.Idx → α) (q : Fin 1024) (b : Fin 2) (hb : b.val = q.val % 2) :
    shapeCast S1x1024 (shapeCast S1024 (broadcastInDim S512x2 ![0, 1] bcast_S1x2_S512x2_0_1 v) shapeCasts_S512x2_S1024)
        shapeCasts_S1024_S1x1024 (ix2 (0 : Fin 1) q)
      = v (ix2 (0 : Fin 1) b) := by
  rw [shapeCast_a_1a_apply]
  refine (shapeCast_apply _ shapeCasts_S512x2_S1024 (ix1 q)
    (ix2 (⟨q.val / 2, by have := q.isLt; omega⟩ : Fin 512) b) ?_).trans ?_
  · rw [Shape.rowMajor_val_two, Shape.rowMajor_val_one]
    show q.val / 2 * 2 + b.val = q.val
    rw [hb]; omega
  · exact broadcastInDim_apply _ bcast_S1x2_S512x2_0_1 v _ _ (fun a => match a with
      | ⟨0, _⟩ => by show 0 = if (1 : Nat) = 1 then 0 else q.val / 2; rw [if_pos rfl]
      | ⟨1, _⟩ => by show b.val = if (2 : Nat) = 1 then 0 else b.val; rw [if_neg (by decide)])

/-- The weight column as a row pair: [2, 1] flattened to [2] and given a leading unit axis. -/
theorem weight_pair_apply (w : S2x1.Idx → α) (b : Fin 2) :
    shapeCast S1x2 (shapeCast S2 w shapeCasts_S2x1_S2) shapeCasts_S2_S1x2 (ix2 (0 : Fin 1) b) = w (ix2 b (0 : Fin 1)) := by
  rw [shapeCast_a_1a_apply]
  refine shapeCast_apply _ shapeCasts_S2x1_S2 (ix1 b) (ix2 b (0 : Fin 1)) ?_
  rw [Shape.rowMajor_val_two, Shape.rowMajor_val_one]
  show b.val * 1 + 0 = b.val
  omega

/-- The interleaved matrix viewed as [4096, 4096, 2]: entry (i, j, c) is column 2 j + c of row i. -/
theorem paired_apply (y : S4096x8192.Idx → α) (i j : Fin 4096) (c : Fin 2) (s : Fin 8192) (hs : s.val = 2 * j.val + c.val) :
    shapeCast S4096x4096x2 y shapeCasts_S4096x8192_S4096x4096x2 (ix3 i j c) = y (ix2 i s) := by
  refine shapeCast_apply _ shapeCasts_S4096x8192_S4096x4096x2 (ix3 i j c) (ix2 i s) ?_
  rw [Shape.rowMajor_val_three, Shape.rowMajor_val_two]
  show i.val * 8192 + s.val = (i.val * 4096 + j.val) * 2 + c.val
  rw [hs]; omega

/-! ## The host stretches between and after the regions -/

section Run
variable (m : (ℓ : Loc nD τ sig) → Buf (Elt Ideal) ℓ) (ρ : Dev nD → PrngReg)

/-- The normalised matrix passes the eleven host operations untouched. -/
theorem entry2_v0 (c : Dev nD) : V2 m ρ c main_v0 = V1 m ρ c main_v0 := by
  show StableHlo.after hostOps1 (W1 m ρ c) (Proc.devRef .tc main_v0) = _
  after_results <;> rfl

/-- The doubled operand at the second region's entry. -/
theorem entry2_v2 (c : Dev nD) : (V2 m ρ c main_v2 : S8192x768.Idx → EReal)
    = shapeCast S8192x768 (broadcastInDim S4096x2x768 ![0, 2] bcast_S4096x768_S4096x2x768_0_2 (V1 m ρ c main_v0)) shapeCasts_S4096x2x768_S8192x768 := by
  show StableHlo.after hostOps1 (W1 m ρ c) (Proc.devRef .tc main_v2) = _
  after_results <;> rfl

/-- The weight row at the second region's entry. -/
theorem entry2_v7 (c : Dev nD) : (V2 m ρ c main_v7 : S1x1024.Idx → EReal)
    = shapeCast S1x1024 (shapeCast S1024 (broadcastInDim S512x2 ![0, 1] bcast_S1x2_S512x2_0_1
        (shapeCast S1x2 (shapeCast S2 (V1 m ρ c main_arg1) shapeCasts_S2x1_S2) shapeCasts_S2_S1x2)) shapeCasts_S512x2_S1024)
        shapeCasts_S1024_S1x1024 := by
  show StableHlo.after hostOps1 (W1 m ρ c) (Proc.devRef .tc main_v7) = _
  after_results <;> rfl

/-- The bias row at the second region's entry. -/
theorem entry2_v11 (c : Dev nD) : (V2 m ρ c main_v11 : S1x1024.Idx → EReal)
    = shapeCast S1x1024 (shapeCast S1024 (broadcastInDim S512x2 ![0, 1] bcast_S1x2_S512x2_0_1
        (shapeCast S1x2 (V1 m ρ c main_arg2) shapeCasts_S2_S1x2)) shapeCasts_S512x2_S1024)
        shapeCasts_S1024_S1x1024 := by
  show StableHlo.after hostOps1 (W1 m ρ c) (Proc.devRef .tc main_v11) = _
  after_results <;> rfl

/-- The result after the last reshape. -/
theorem exit_v13 (c : Dev nD) : (W4 m ρ c (Proc.devRef .tc main_v13) : S4096x4096x2.Idx → EReal)
    = shapeCast S4096x4096x2 (V3 m ρ c main_v12) shapeCasts_S4096x8192_S4096x4096x2 := by
  show StableHlo.after hostOps2 (W3 m ρ c) (Proc.devRef .tc main_v13) = _
  after_results <;> rfl

end Run

end Cert.KernelIdeal.Hand
end
-- ==== Proof.KernelIsSpec.lean ====
/-
  The kernel's result, composed.

  Reading backwards from the last boundary: the result is the second region's output with its columns paired up;
  that output is the product-affine matrix of the region's four operands; the left operand is the first region's
  output, untouched by the host operations, which is the matrix of unit rows of the argument; the doubled operand
  at row s is unit row s / 2; the two rows at q are the weight and the bias of channel q mod 2, the weight and the
  bias themselves having passed the first region untouched. Column s = 2 j + c of row i is therefore
  (sum_k u[i,k] * u[j,k]) * w[c,0] + b[c], since s / 2 = j and (s mod 1024) mod 2 = c.
-/
import proofs.«122956_j30339648979154_2_alg».proof.Proof.Gen.KernelIdeal.Frame
import proofs.«122956_j30339648979154_2_alg».proof.Proof.Spec
import proofs.«122956_j30339648979154_2_alg».proof.Proof.Normalize
import proofs.«122956_j30339648979154_2_alg».proof.Proof.SimAffine
import proofs.«122956_j30339648979154_2_alg».proof.Proof.HostGlue

noncomputable section
namespace Cert.KernelIdeal.Hand
open Cert.KernelIdeal Cert.KernelIdeal.Gen Idealize.ShloMosaic Idealize.ShloMosaic.TcCoe Idealize.SL.Sem Idealize.ShloMosaic.ValueIdx
open Cert.CosAffine

variable (m : (ℓ : Loc nD τ sig) → Buf (Elt Ideal) ℓ) (ρ : Dev nD → PrngReg)

/-- After the first region the normalised array holds the unit rows of the argument as launched. -/
theorem exit1_v0 (c : Dev nD) : V1 m ρ c main_v0 = unitArr (m ((c : Thread nD τ).loc main_arg0)) :=
  (W1_arr m ρ c 1).trans (normalize_final (V0 m ρ) c)

/-- The weight and the bias pass the first region untouched. -/
theorem exit1_arg1 (c : Dev nD) : V1 m ρ c main_arg1 = m ((c : Thread nD τ).loc main_arg1) :=
  W1_of_ne m ρ c main_arg1 (by decide)
theorem exit1_arg2 (c : Dev nD) : V1 m ρ c main_arg2 = m ((c : Thread nD τ).loc main_arg2) :=
  W1_of_ne m ρ c main_arg2 (by decide)

/-- After the second region its output is the product-affine matrix of its four operands as it found them. -/
theorem exit2_v12 (c : Dev nD) : V3 m ρ c main_v12
    = prodAffine (V2 m ρ c main_v0) (V2 m ρ c main_v2) (V2 m ρ c main_v7) (V2 m ρ c main_v11) :=
  (W3_arr m ρ c 4).trans (sim_final (V2 m ρ) c)

/-- The left operand of the second region at (r, k). -/
theorem left_at (c : Dev nD) (r : Fin 4096) (k : Fin 768) :
    (V2 m ρ c main_v0 : S4096x768.Idx → EReal) (ix2 r k) = unitRow (m ((c : Thread nD τ).loc main_arg0)) r k := by
  rw [entry2_v0, exit1_v0, unitArr_ix2]

/-- The doubled operand at (s, k): the unit row s / 2. -/
theorem doubled_at (c : Dev nD) (s : Fin 8192) (k : Fin 768) (r : Fin 4096) (hr : r.val = s.val / 2) :
    (V2 m ρ c main_v2 : S8192x768.Idx → EReal) (ix2 s k) = unitRow (m ((c : Thread nD τ).loc main_arg0)) r k := by
  rw [entry2_v2, doubled_apply _ s k r hr, exit1_v0, unitArr_ix2]

/-- The weight row at q: the weight of channel q mod 2. -/
theorem weight_at (c : Dev nD) (q : Fin 1024) (b : Fin 2) (hb : b.val = q.val % 2) :
    (V2 m ρ c main_v7 : S1x1024.Idx → EReal) (ix2 (0 : Fin 1) q) = (m ((c : Thread nD τ).loc main_arg1) : S2x1.Idx → EReal) (ix2 b (0 : Fin 1)) := by
  rw [entry2_v7, tiled_apply _ q b hb, weight_pair_apply, exit1_arg1]

/-- The bias row at q: the bias of channel q mod 2. -/
theorem bias_at (c : Dev nD) (q : Fin 1024) (b : Fin 2) (hb : b.val = q.val % 2) :
    (V2 m ρ c main_v11 : S1x1024.Idx → EReal) (ix2 (0 : Fin 1) q) = (m ((c : Thread nD τ).loc main_arg2) : S2.Idx → EReal) (ix1 b) := by
  rw [entry2_v11, tiled_apply _ q b hb, shapeCast_a_1a_apply, exit1_arg2]

/-- THE KERNEL'S RESULT is the specification of the arguments as launched. -/
theorem kernel_is_spec (c : Dev nD) :
    (W4 m ρ c (Proc.devRef .tc main_v13) : S4096x4096x2.Idx → EReal)
      = outArr (m ((c : Thread nD τ).loc main_arg0)) (m ((c : Thread nD τ).loc main_arg1)) (m ((c : Thread nD τ).loc main_arg2)) := by
  rw [exit_v13]
  funext i
  obtain ⟨a, b, ch, rfl⟩ : ∃ (a b : Fin 4096) (ch : Fin 2), i = ix3 a b ch := ⟨i 0, i 1, i 2, eq_ix3 i⟩
  have hb4 : b.val < 4096 := b.isLt
  have hc2 : ch.val < 2 := ch.isLt
  have hs : 2 * b.val + ch.val < 8192 := by omega
  rw [paired_apply _ a b ch ⟨2 * b.val + ch.val, hs⟩ rfl, exit2_v12, prodAffine_ix2, outArr_ix3]
  unfold out sim
  have hq : ch.val = (2 * b.val + ch.val) % 1024 % 2 := by omega
  rw [weight_at m ρ c _ ch hq, bias_at m ρ c _ ch hq]
  refine congrArg (fun z => z * _ + _) ?_
  refine Finset.sum_congr rfl fun k _ => ?_
  rw [left_at, doubled_at m ρ c _ k b (by show b.val = (2 * b.val + ch.val) / 2; omega)]

end Cert.KernelIdeal.Hand
end
-- ==== Proof.RefIsSpec.lean ====
/-
  The reference computes the specification.

  Read one operation at a time, the reference's result at (i, j, c) is the dot product of rows i and j of its
  normalised matrix, times the weight of channel c, plus the bias of channel c; and its normalised matrix at
  (r, k) is x[r,k] divided by max (sqrt (0 + sum_k x[r,k]^2)) eps, the host's sum starting from the zero word.
  The broadcasts and the reshape of the weight only move indices: each composed index map is the evident one.
-/
import proofs.«122956_j30339648979154_2_alg».proof.Proof.Gen.ReferenceIdeal.Read
import proofs.«122956_j30339648979154_2_alg».proof.Proof.Spec
import Idealize.ShloMosaic.Lib.ValueIdx
import Idealize.ShloMosaic.PureOps.Ideal.Laws

noncomputable section
namespace Cert.ReferenceIdeal.Hand
open Cert.ReferenceIdeal Cert.ReferenceIdeal.Read Idealize.ShloMosaic Idealize.ShloMosaic.ValueIdx

/-- The reference's normalised matrix at (r, k) is the unit row entry: the row's squares summed from zero, the root,
    the clamp, the division. -/
theorem ref_unit (x0 : S4096x768.Idx → EReal) (r : Fin 4096) (k : Fin 768) :
    val_main_v4 (F := Ideal) x0 (ix2 r k) = Cert.CosAffine.unitRow x0 r k := by
  have e3 : idx_main_v3 (ix2 r k) = ix2 r (0 : Fin 1) := funext fun a => Fin.ext (by match a with | ⟨0, _⟩ => rfl | ⟨1, _⟩ => rfl)
  have e2 : idx_main_call0_v2 (ix2 r (0 : Fin 1)) = ix1 r := funext fun a => Fin.ext (by match a with | ⟨0, _⟩ => rfl)
  have e1 : ∀ k' : Fin 768, idx_main_call0_v1 (ix1 r) k' = ix2 r k' := fun k' => funext fun a => Fin.ext (by match a with | ⟨0, _⟩ => rfl | ⟨1, _⟩ => rfl)
  rw [val_main_v4_apply, val_main_v3_apply, e3, val_main_v2_apply, val_main_v0_apply, val_main_call0_v2_apply, e2,
    val_main_call0_v1_apply, val_main_v1_apply, val_main_cst_apply, val_main_call0_cst_apply]
  simp only [e1, val_main_call0_v0_apply, Ideal.hostDivf_def, Ideal.maximumf_def, Ideal.hostUnary_sqrt_def, Ideal.ofBits_def,
    Ideal.mulf_def, Ideal.ofBits_zero_f32, zero_add]
  rfl

/-- The reference's result is the specification, index by index. -/
theorem ref_is_spec (x0 : S4096x768.Idx → EReal) (x1 : S2x1.Idx → EReal) (x2 : S2.Idx → EReal) :
    val_main_v14 (F := Ideal) x0 x1 x2 = Cert.CosAffine.outArr x0 x1 x2 := by
  funext i
  obtain ⟨a, b, c, rfl⟩ : ∃ (a b : Fin 4096) (c : Fin 2), i = ix3 a b c := ⟨i 0, i 1, i 2, eq_ix3 i⟩
  have el : ∀ k : Fin 768, lidx_main_v5 (idx_main_v6 (idx_main_v9 (ix3 a b c))) k = ix2 a k :=
    fun k => funext fun d => Fin.ext (by match d with | ⟨0, _⟩ => rfl | ⟨1, _⟩ => rfl)
  have er : ∀ k : Fin 768, ridx_main_v5 (idx_main_v6 (idx_main_v9 (ix3 a b c))) k = ix2 b k :=
    fun k => funext fun d => Fin.ext (by match d with | ⟨0, _⟩ => rfl | ⟨1, _⟩ => rfl)
  have ew : idx_main_v7 (idx_main_v8 (idx_main_v10 (ix3 a b c))) = ix2 c (0 : Fin 1) :=
    funext fun d => Fin.ext (by match d with | ⟨0, _⟩ => exact Nat.div_one _ | ⟨1, _⟩ => rfl)
  have eb : idx_main_v12 (idx_main_v13 (ix3 a b c)) = ix1 c :=
    funext fun d => Fin.ext (by match d with | ⟨0, _⟩ => rfl)
  rw [val_main_v14_apply, val_main_v11_apply, val_main_v9_apply, val_main_v6_apply, val_main_v5_apply,
    val_main_v10_apply, val_main_v8_apply, val_main_v7_apply, ew, val_main_v13_apply, val_main_v12_apply, eb,
    Cert.CosAffine.outArr_ix3]
  simp only [el, er, ref_unit, Ideal.addf_def, Ideal.mulf_def]
  rfl

end Cert.ReferenceIdeal.Hand
end
-- ==== Proof.lean ====
/-
  Pairwise cosine similarity followed by a two-channel affine map: the kernel against its reference.

  For x of 4096 rows and 768 columns, a weight w of shape [2, 1] and a bias b of 2 entries, both programs compute
      out[i, j, c] = (sum_k u[i,k] * u[j,k]) * w[c,0] + b[c],   u[r,k] = x[r,k] / max (sqrt (sum_k x[r,k]^2)) eps,
  over the extended reals (Proof/Spec.lean). The reference does it with whole-array operations (Proof/RefIsSpec.lean).
  The kernel does it in two grid regions with host layout operations between and after them: the first region
  normalises the rows block by block (Proof/Normalize.lean); the host doubles every row and tiles the weight and the
  bias into alternating rows (Proof/HostGlue.lean); the second region multiplies each block of rows by each block of
  doubled rows and applies the alternating rows (Proof/SimAffine.lean), so that column 2 j + c of its output is
  channel c of pair (i, j); a final reshape pairs the columns up. Proof/KernelIsSpec.lean composes these into the
  kernel's result, read off its run (Proof/RunValue.lean). No algebraic law is needed beyond re-indexing: the two
  sides are the same expression entry by entry, so the precondition on the inputs is never opened.
  The ideal pass rewrote nothing, so the kernel's idealization is its own text and that conjunct is trivial.
-/
import proofs.«122956_j30339648979154_2_alg».proof.Defs
import proofs.«122956_j30339648979154_2_alg».proof.Proof.Gen.Kernel
import proofs.«122956_j30339648979154_2_alg».proof.Proof.Gen.Kernel.Skeleton
import proofs.«122956_j30339648979154_2_alg».proof.Proof.Gen.Kernel.Launch
import proofs.«122956_j30339648979154_2_alg».proof.Proof.Gen.Kernel.Points
import proofs.«122956_j30339648979154_2_alg».proof.Proof.Gen.Kernel.Frame
import proofs.«122956_j30339648979154_2_alg».proof.Proof.Gen.KernelIdeal
import proofs.«122956_j30339648979154_2_alg».proof.Proof.Gen.KernelIdeal.Skeleton
import proofs.«122956_j30339648979154_2_alg».proof.Proof.Gen.KernelIdeal.Launch
import proofs.«122956_j30339648979154_2_alg».proof.Proof.Gen.KernelIdeal.Points
import proofs.«122956_j30339648979154_2_alg».proof.Proof.Gen.KernelIdeal.Frame
import proofs.«122956_j30339648979154_2_alg».proof.Proof.Gen.ReferenceIdeal
import proofs.«122956_j30339648979154_2_alg».proof.Proof.Gen.ReferenceIdeal.Run
import proofs.«122956_j30339648979154_2_alg».proof.Proof.Gen.ReferenceIdeal.Read
import proofs.«122956_j30339648979154_2_alg».proof.Proof.Gen.Pre_finite_inputs
import proofs.«122956_j30339648979154_2_alg».proof.Proof.RunValue
import proofs.«122956_j30339648979154_2_alg».proof.Proof.KernelIsSpec
import proofs.«122956_j30339648979154_2_alg».proof.Proof.RefIsSpec
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the result array at the specification of the (agreeing) arguments. -/
theorem algebraic : Cert.algebraic_KernelIdeal_ReferenceIdeal := by
  intro m ρ m' ρ' _ hagree
  refine ⟨fun c => Cert.CosAffine.outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Hand.kernel_is_spec m ρ c), (h c).2⟩)
      (Cert.KernelIdeal.Hand.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v14_eq, Cert.ReferenceIdeal.Hand.ref_is_spec, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
